-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x32 : Shape := ⟨2, ![1024, 32]⟩
abbrev S100000x32 : Shape := ⟨2, ![100000, 32]⟩
abbrev S100000 : Shape := ⟨1, ![100000]⟩
abbrev S_ : Shape := ⟨0, ![]⟩

class Facts : Prop where
  bcast_S_S1024x32 : S_.BroadcastsInDim S1024x32 (![] : Fin 0 → Fin S1024x32.rank)
  reducesTo_S1024x32_S_d0_1 : S1024x32.ReducesTo [0, 1] S_
  h_S_ : 0 < S_.numel
  bcast_S_S100000x32 : S_.BroadcastsInDim S100000x32 (![] : Fin 0 → Fin S100000x32.rank)
  reducesTo_S100000x32_S_d0_1 : S100000x32.ReducesTo [0, 1] S_
  bcast_S_S100000 : S_.BroadcastsInDim S100000 (![] : Fin 0 → Fin S100000.rank)
  reducesTo_S100000_S_d0 : S100000.ReducesTo [0] S_

variable [Facts]

def fn {F : FTy → Type} [FloatOps F] (main_arg0 : FVec F S1024x32 .f32) (main_arg1 : FVec F S100000x32 .f32) (main_arg2 : FVec F S100000 .f32) : IVec S_ 1 :=
  let main_v0 : FVec F S1024x32 .f32 := Host.absf main_arg0
  let main_cst : FVec F S_ .f32 := constant S_ .f32 0x7F800000#32
  let main_v1 : FVec F S1024x32 .f32 := broadcastInDim S1024x32 ![] bcast_S_S1024x32 main_cst
  let main_v2 : IVec S1024x32 1 := cmpf .olt main_v0 main_v1
  let main_c : IVec S_ 1 := constantI S_ 1 1#1
  let main_v3 : IVec S_ 1 := (fun x v => Host.reduce IntOp.andi x v reducesTo_S1024x32_S_d0_1 h_S_) main_v2 main_c
  let main_v4 : FVec F S100000x32 .f32 := Host.absf main_arg1
  let main_cst_0 : FVec F S_ .f32 := constant S_ .f32 0x7F800000#32
  let main_v5 : FVec F S100000x32 .f32 := broadcastInDim S100000x32 ![] bcast_S_S100000x32 main_cst_0
  let main_v6 : IVec S100000x32 1 := cmpf .olt main_v4 main_v5
  let main_c_1 : IVec S_ 1 := constantI S_ 1 1#1
  let main_v7 : IVec S_ 1 := (fun x v => Host.reduce IntOp.andi x v reducesTo_S100000x32_S_d0_1 h_S_) main_v6 main_c_1
  let main_v8 : IVec S_ 1 := andi main_v3 main_v7
  let main_v9 : FVec F S100000 .f32 := Host.absf main_arg2
  let main_cst_2 : FVec F S_ .f32 := constant S_ .f32 0x7F800000#32
  let main_v10 : FVec F S100000 .f32 := broadcastInDim S100000 ![] bcast_S_S100000 main_cst_2
  let main_v11 : IVec S100000 1 := cmpf .olt main_v9 main_v10
  let main_c_3 : IVec S_ 1 := constantI S_ 1 1#1
  let main_v12 : IVec S_ 1 := (fun x v => Host.reduce IntOp.andi x v reducesTo_S100000_S_d0 h_S_) main_v11 main_c_3
  let main_v13 : IVec S_ 1 := andi main_v8 main_v12
  main_v13
-- ==== Kernel.lean ====
abbrev S1024x32 : Shape := ⟨2, ![1024, 32]⟩
abbrev S100000x32 : Shape := ⟨2, ![100000, 32]⟩
abbrev S100000 : Shape := ⟨1, ![100000]⟩
abbrev S32x100000 : Shape := ⟨2, ![32, 100000]⟩
abbrev S1x100000 : Shape := ⟨2, ![1, 100000]⟩
abbrev S1024x100000 : Shape := ⟨2, ![1024, 100000]⟩
abbrev S32x4096 : Shape := ⟨2, ![32, 4096]⟩
abbrev S1x4096 : Shape := ⟨2, ![1, 4096]⟩
abbrev S1024x4096 : Shape := ⟨2, ![1024, 4096]⟩

abbrev nBuf : Space → Nat
  | .hbm => 6
  | .vmem => 7
  | .smem => 0
  | _ => 0

abbrev bufTy : (tb : Table) → Fin (tcTables nBuf tb) → BufTy
  | .hbm, ⟨0, _⟩ => ⟨S1024x32, .f32⟩
  | .hbm, ⟨1, _⟩ => ⟨S100000x32, .f32⟩
  | .hbm, ⟨2, _⟩ => ⟨S100000, .f32⟩
  | .hbm, ⟨3, _⟩ => ⟨S32x100000, .f32⟩
  | .hbm, ⟨4, _⟩ => ⟨S1x100000, .f32⟩
  | .hbm, ⟨5, _⟩ => ⟨S1024x100000, .f32⟩
  | .local _ .vmem, ⟨0, _⟩ => ⟨S1024x32, .f32⟩
  | .local _ .vmem, ⟨1, _⟩ => ⟨S32x4096, .f32⟩
  | .local _ .vmem, ⟨2, _⟩ => ⟨S32x4096, .f32⟩
  | .local _ .vmem, ⟨3, _⟩ => ⟨S1x4096, .f32⟩
  | .local _ .vmem, ⟨4, _⟩ => ⟨S1x4096, .f32⟩
  | .local _ .vmem, ⟨5, _⟩ => ⟨S1024x4096, .f32⟩
  | .local _ .vmem, ⟨6, _⟩ => ⟨S1024x4096, .f32⟩
  | _, _ => ⟨S1024x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1024x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S32x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  transposes_S100000x32_S32x100000_1_0 : S100000x32.Transposes [1, 0] S32x100000
  shapeCasts_S100000_S1x100000 : S100000.ShapeCasts S1x100000
  inb_S1024x32_S1024x32_0_0 : ∀ a, (![0, 0] : Fin 2 → Nat) a + S1024x32.size a ≤ S1024x32.size a
  h_S1024x32 : 0 < S1024x32.numel
  inb_S32x4096_S32x4096_0_0 : ∀ a, (![0, 0] : Fin 2 → Nat) a + S32x4096.size a ≤ S32x4096.size a
  h_S32x4096 : 0 < S32x4096.numel
  shapeCasts_S32x4096_S32x4096 : S32x4096.ShapeCasts S32x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S1024x4096 : S1x4096.Broadcasts S1024x4096
  inb_S1024x4096_S1024x4096_0_0 : ∀ a, (![0, 0] : Fin 2 → Nat) a + S1024x4096.size a ≤ S1024x4096.size a
  h_S1024x4096 : 0 < S1024x4096.numel
  dot_S1024x32_S32x4096_S1024x4096_1_0_0_1_n_n_wf : DotDims.WF S1024x32 S32x4096 S1024x4096 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1024x32.size a ≤ S1024x32.size a
  hwx0_0 : ∀ i : grid0.Coords, EltTy.bits .f32 = 32 ∨ (Rect.block (s := S1024x32) S1024x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S32x4096.size a < S32x100000.size a
  hwx0_1 : ∀ i : grid0.Coords, EltTy.bits .f32 = 32 ∨ (Rect.unit (s := S32x100000) (fun a => cc0_transform_1 i a * S32x4096.size a) (fun a => (Pipeline.Clip.of (cc0_transform_1 i a) (S32x4096.size a) (S32x100000.size a)).extent (S32x4096.size a)) fun a => Pipeline.Clip.inb (Pipeline.Clip.ok_of (hstart0_1 i a))).WholeWords (EltTy.packing .f32)
  hwxs0_1 : ∀ i : grid0.Coords, EltTy.bits .f32 = 32 ∨ (Rect.unit (s := S32x4096) (fun _ => 0) (fun a => (Pipeline.Clip.of (cc0_transform_1 i a) (S32x4096.size a) (S32x100000.size a)).extent (S32x4096.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S1x4096.size a < S1x100000.size a
  hwx0_2 : ∀ i : grid0.Coords, EltTy.bits .f32 = 32 ∨ (Rect.unit (s := S1x100000) (fun a => cc0_transform_2 i a * S1x4096.size a) (fun a => (Pipeline.Clip.of (cc0_transform_2 i a) (S1x4096.size a) (S1x100000.size a)).extent (S1x4096.size a)) fun a => Pipeline.Clip.inb (Pipeline.Clip.ok_of (hstart0_2 i a))).WholeWords (EltTy.packing .f32)
  hwxs0_2 : ∀ i : grid0.Coords, EltTy.bits .f32 = 32 ∨ (Rect.unit (s := S1x4096) (fun _ => 0) (fun a => (Pipeline.Clip.of (cc0_transform_2 i a) (S1x4096.size a) (S1x100000.size a)).extent (S1x4096.size a)) fun a => (Nat.zero_add _).trans_le (Pipeline.Clip.extent_le (Pipeline.Clip.ok_of (hstart0_2 i a)))).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S1024x4096.size a < S1024x100000.size a
  hwx0_3 : ∀ i : grid0.Coords, EltTy.bits .f32 = 32 ∨ (Rect.unit (s := S1024x100000) (fun a => cc0_transform_3 i a * S1024x4096.size a) (fun a => (Pipeline.Clip.of (cc0_transform_3 i a) (S1024x4096.size a) (S1024x100000.size a)).extent (S1024x4096.size a)) fun a => Pipeline.Clip.inb (Pipeline.Clip.ok_of (hstart0_3 i a))).WholeWords (EltTy.packing .f32)
  hwxs0_3 : ∀ i : grid0.Coords, EltTy.bits .f32 = 32 ∨ (Rect.unit (s := S1024x4096) (fun _ => 0) (fun a => (Pipeline.Clip.of (cc0_transform_3 i a) (S1024x4096.size a) (S1024x100000.size a)).extent (S1024x4096.size a)) fun a => (Nat.zero_add _).trans_le (Pipeline.Clip.extent_le (Pipeline.Clip.ok_of (hstart0_3 i a)))).WholeWords (EltTy.packing .f32)

variable [Facts₀]

def dot_S1024x32_S32x4096_S1024x4096_1_0_0_1_n_n : DotDims S1024x32 S32x4096 S1024x4096 where
  lhsContracting := [1]
  rhsContracting := [0]
  lhsNonContracting := [0]
  rhsNonContracting := [1]
  lhsBatch := []
  rhsBatch := []
  wf := dot_S1024x32_S32x4096_S1024x4096_1_0_0_1_n_n_wf

abbrev win0_0 : Pipeline.Window sig grid0 :=
  Pipeline.Window.ofSpec (Memref.whole main_arg0) S1024x32.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpecClip (Memref.whole main_v0) S32x4096.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_v1) S1x4096.size cc0_transform_2 reads0_2 false false 2 stage0_2 sem0_2
    hrank0 hreads0_2 hstart0_2 nbuf0_2 (Memref.isWhole_whole _) hwx0_2 hwxs0_2 hstage0_2

abbrev win0_3 : Pipeline.Window sig grid0 :=
  Pipeline.Window.ofSpecClip (Memref.whole main_v2) S1024x4096.size cc0_transform_3 reads0_3 true false 2 stage0_3 sem0_3
    hrank0 hreads0_3 hstart0_3 nbuf0_3 (Memref.isWhole_whole _) hwx0_3 hwxs0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S1024x32 : Shape := ⟨2, ![1024, 32]⟩
abbrev S100000x32 : Shape := ⟨2, ![100000, 32]⟩
abbrev S100000 : Shape := ⟨1, ![100000]⟩
abbrev S32x100000 : Shape := ⟨2, ![32, 100000]⟩
abbrev S1024x100000 : Shape := ⟨2, ![1024, 100000]⟩
abbrev S1x100000 : Shape := ⟨2, ![1, 100000]⟩

abbrev nBuf : Space → Nat
  | .hbm => 8
  | .vmem => 0
  | .smem => 0
  | _ => 0

abbrev bufTy : (tb : Table) → Fin (tcTables nBuf tb) → BufTy
  | .hbm, ⟨0, _⟩ => ⟨S1024x32, .f32⟩
  | .hbm, ⟨1, _⟩ => ⟨S100000x32, .f32⟩
  | .hbm, ⟨2, _⟩ => ⟨S100000, .f32⟩
  | .hbm, ⟨3, _⟩ => ⟨S32x100000, .f32⟩
  | .hbm, ⟨4, _⟩ => ⟨S1024x100000, .f32⟩
  | .hbm, ⟨5, _⟩ => ⟨S1x100000, .f32⟩
  | .hbm, ⟨6, _⟩ => ⟨S1024x100000, .f32⟩
  | .hbm, ⟨7, _⟩ => ⟨S1024x100000, .f32⟩
  | _, _ => ⟨S1024x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]

class Facts₀ : Prop where
  transposes_S100000x32_S32x100000_1_0 : S100000x32.Transposes [1, 0] S32x100000
  bcast_S100000_S1x100000_1 : S100000.BroadcastsInDim S1x100000 (![1] : Fin 1 → Fin S1x100000.rank)
  bcast_S1x100000_S1024x100000_0_1 : S1x100000.BroadcastsInDim S1024x100000 (![0, 1] : Fin 2 → Fin S1024x100000.rank)
  dot_S1024x32_S32x100000_S1024x100000_1_0_0_1_n_n_wf : DotDims.WF S1024x32 S32x100000 S1024x100000 [1] [0] [0] [1] [] []

variable [Facts₀]

def dot_S1024x32_S32x100000_S1024x100000_1_0_0_1_n_n : DotDims S1024x32 S32x100000 S1024x100000 where
  lhsContracting := [1]
  rhsContracting := [0]
  lhsNonContracting := [0]
  rhsNonContracting := [1]
  lhsBatch := []
  rhsBatch := []
  wf := dot_S1024x32_S32x100000_S1024x100000_1_0_0_1_n_n_wf

class Facts : Prop extends Facts₀ where

variable [Facts]
-- ==== Proof.KernelBody.lean ====
import proofs.«116324_g6253472383653_cont_sun_m_699_22_alg».proof.Proof.Gen.Kernel.Frame
import proofs.«116324_g6253472383653_cont_sun_m_699_22_alg».proof.Proof.Gen.Kernel.Skeleton
import Idealize.ShloMosaic.Lib.Pipeline.Value

/-! # The kernel body's triple

The body reads its four staging buffers whole (the last read is dead), and overwrites the whole result
buffer with `k0_pay1 x0 x1 x2`: the product of the first by the second plus the third's row broadcast
down the rows. Each access is through the unit rectangle at offset zero of the buffer's own extents, so a
load reads the buffer's contents and the one store leaves its payload. Everything stays symbolic in the
contents; the statement is generic in the float model. -/

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets of a rank-two access, as the constant function. -/
theorem hz : (![0, 0] : Fin 2 → Nat) = fun _ => 0 := funext fun a => by fin_cases a <;> rfl

set_option maxHeartbeats 1000000 in
/-- The body on whole staging memrefs, the three inputs' at contents `x0 x1 x2` and the result's at
    anything, runs to the continuation holding the inputs' as they were and the result's at
    `k0_pay1 x0 x1 x2`. -/
theorem sound_kernel (c : Dev nD) (E : Set ℕ) (i : grid0.Coords)
    (arg1 : Memref sig .tc .vmem S1024x32 .f32) (harg1 : arg1.IsWhole) (arg2 : Memref sig .tc .vmem S32x4096 .f32) (harg2 : arg2.IsWhole)
    (arg3 : Memref sig .tc .vmem S1x4096 .f32) (harg3 : arg3.IsWhole) (arg4 : Memref sig .tc .vmem S1024x4096 .f32) (harg4 : arg4.IsWhole)
    (x0 : Vec F S1024x32 .f32) (x1 : Vec F S32x4096 .f32) (x2 : Vec F S1x4096 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (k0_pay1 x0 x1 x2)) -∗ K ⟨⟩))
      ⊢ wp frame (wpE (defs₀ (F := F)) Variants.none c none) E (cc0__cwr_head_kernel i arg1 harg1 arg2 harg2 arg3 harg3 arg4 harg4) K := by
  simp only [cc0__cwr_head_kernel_eq_skeleton]; unfold cc0__cwr_head_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  refine (View.read_writes_eq_canon _ _ _ ?cov).trans ?_
  case cov =>
    intro y
    refine ⟨_, List.mem_singleton_self _, ?_⟩
    exact View.mem_set_unit_zero (S := S1024x4096) hz inb_S1024x4096_S1024x4096_0_0 y
  refine (View.canon_unit_zero (S := S1024x4096) hz inb_S1024x4096_S1024x4096_0_0 _).trans ?_
  have e0 : View.readAt (Elt F) arg1.view (Rect.unit ![0, 0] S1024x32.size inb_S1024x32_S1024x32_0_0).toLoadRect f0
      = View.read (Elt F) arg1.view f0 := View.ld_unit_zero (S := S1024x32) hz inb_S1024x32_S1024x32_0_0 _
  have e1 : View.readAt (Elt F) arg2.view (Rect.unit ![0, 0] S32x4096.size inb_S32x4096_S32x4096_0_0).toLoadRect f1
      = View.read (Elt F) arg2.view f1 := View.ld_unit_zero (S := S32x4096) hz inb_S32x4096_S32x4096_0_0 _
  have e2 : View.readAt (Elt F) arg3.view (Rect.unit ![0, 0] S1x4096.size inb_S1x4096_S1x4096_0_0).toLoadRect f2
      = View.read (Elt F) arg3.view f2 := View.ld_unit_zero (S := S1x4096) hz inb_S1x4096_S1x4096_0_0 _
  exact congr (congr (congrArg k0_pay1 e0) e1) e2

end Cert.Kernel.Body

end
-- ==== Proof.KernelFrame.lean ====
import proofs.«116324_g6253472383653_cont_sun_m_699_22_alg».proof.Proof.KernelBody

/-! # The frame of the word-level program

The claim: every weakly fair run of the program on the TensorCores terminates and leaves the three argument
arrays as they were. It says nothing of what the result holds, and the last block of the weight, the bias and
the result overhangs its array, so that the tail of a fetched staging buffer holds words no array names. The
proof data are therefore relational: of what the body leaves in a staging buffer nothing is asked (the relation
that holds of any two contents), and the body's triple is used only for its running to the end with every
buffer handed back whole. The first argument is staged by window 0 and, being an input, is never written back;
the other two arguments are no window's array (the host transposes one and reshapes the other into fresh
buffers before the region), so the region passes them by. -/

set_option maxRecDepth 16384

noncomputable section

namespace Cert.Kernel.HandFrame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- The relational proof data of the one pipeline on core `c`: the arrays as the region finds them; of what
    the body leaves in any staging buffer, nothing; the invariant the scoped rest and the generator register,
    untouched; nothing owed; full shares. -/
def rdat (c : Dev nD) : RDat τ (Elt F) Unit ℕ (UR sig nD τ) ℕ (cfgs 0) c where
  A w := Gen.V m c (Pipeline.arrRef spec0 w)
  after _ _ _ _ := True
  Φ _ := Pipeline.ΦA spec0 c
  q _ := fullShare
  owed _ := 0

/-- The proof data's arrays are the region-entry contents (the definition projected, the host prefix's fold
    never unfolded). -/
theorem A_eq (c : Dev nD) (w : Fin cfg0.W) : (rdat m c).A w = Gen.V m c (Pipeline.arrRef spec0 w) := by
  dsimp only [rdat]

/-! ## The body obligation -/

/-- The body at any point, on whatever the four current staging buffers hold: it runs to the end, the invariant
    and what the core owes passing through unread, and hands each buffer back at some contents. -/
theorem sound_body (c : Dev nD) (t : Fin cfg0.N)
    (Y : (w : Fin cfg0.W) → (cfg0.win w).block.Idx → Elt F (cfg0.win w).elt) :
    iprop((rdat m c).Φ t.castSucc ∗ (rdat m c).owesAt () t.castSucc
        ∗ owns (c : Thread nD τ) (st0_0 t) fullShare (Y 0)
        ∗ owns (c : Thread nD τ) (st0_1 t) fullShare (Y 1)
        ∗ owns (c : Thread nD τ) (st0_2 t) fullShare (Y 2)
        ∗ owns (c : Thread nD τ) (st0_3 t) fullShare (Y 3))
      ⊢ wp frame (wpE (defs₀ (F := F)) Variants.none c none) Set.univ (bodyAt0 t) (fun _ =>
        iprop((rdat m c).Φ t.succ ∗ (rdat m c).owesAt () t.succ
          ∗ (∃ X, ⌜(rdat m c).after 0 t (Y 0) X⌝ ∗ owns (c : Thread nD τ) (st0_0 t) fullShare X)
          ∗ (∃ X, ⌜(rdat m c).after 1 t (Y 1) X⌝ ∗ owns (c : Thread nD τ) (st0_1 t) fullShare X)
          ∗ (∃ X, ⌜(rdat m c).after 2 t (Y 2) X⌝ ∗ owns (c : Thread nD τ) (st0_2 t) fullShare X)
          ∗ (∃ X, ⌜(rdat m c).after 3 t (Y 3) X⌝ ∗ owns (c : Thread nD τ) (st0_3 t) fullShare X))) := by
  unfold bodyAt0
  rw [show (rdat m c).Φ t.succ = (rdat m c).Φ t.castSucc from rfl,
    show (rdat m c).owesAt () t.succ = (rdat m c).owesAt () t.castSucc from rfl]
  iintro ⟨HΦ, Ho, H0, H1, H2, H3⟩
  iapply (Body.sound_kernel c Set.univ (grid0.coords t) _ _ _ _ _ _ _ _ (Y 0) (Y 1) (Y 2) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]
  · iexists (Y 0); isplitr; · ipureintro; trivial
    iexact H0
  isplitl [H1]
  · iexists (Y 1); isplitr; · ipureintro; trivial
    iexact H1
  isplitl [H2]
  · iexists (Y 2); isplitr; · ipureintro; trivial
    iexact H2
  iexists (k0_pay1 (Y 0) (Y 1) (Y 2)); isplitr; · ipureintro; trivial
  iexact H3

/-- The library's body obligation of the relational data, at every point: nothing of what the buffers may hold
    is used. -/
theorem body_obligation (c : Dev nD) : (rdat (F := F) m c).BodyObligation (defs₀ (F := F)) Variants.none () Set.univ := fun t Y _ => by
  rw [Gen.bigSep_W0, Gen.bigSep_W0]
  exact sound_body m c t Y

/-! ## The run and the frame -/

set_option backward.isDefEq.respectTransparency.types false in
/-- Every weakly fair execution of the program on the TensorCores terminates, and every final state has every
    windowed array at some contents the write-backs may have left (an input's: its entry contents) and every
    other unscoped buffer as the region found it. -/
theorem run_main : θ_run defs (onTc (τ := τ) (main (F := F))) (s₀ m ρ) (Pipeline.RDat.FramePost (cfgs 0) (rdat m) (Gen.V m)) :=
  Pipeline.RDat.θ_run_frame cfgs (0 : Fin 1) Gen.launch0 defs₀ Variants.none (rdat m) m ρ main
    (hbody := body_obligation m) (hshare := fun c => (rdat m c).share_full fun _ => rfl)
    (howed := fun _ _ => rfl) (V := Gen.V m) (hmain := Gen.hmain m Variants.none) (hA := A_eq m) (hΦ := fun _ _ => rfl)

/-- THE FRAME: the three argument arrays end as they were launched. The first is window 0's array, an input,
    never written back; the other two are staged by no window and bypass the region; no host operation before
    the region writes any of the three. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(Eq.mp (congrFun ((rdat m c).ArrAt_in 0 rfl _) _) ((h c).1 0)).trans ((A_eq m c 0).trans (Gen.V_main_arg0 m c)),
      ((h c).2 main_arg1 (Pipeline.mem_restRefs_of main_arg1 (by decide) (by decide))).trans (Gen.V_main_arg1 m c),
      ((h c).2 main_arg2 (Pipeline.mem_restRefs_of main_arg2 (by decide) (by decide))).trans (Gen.V_main_arg2 m c)⟩)
    (run_main m ρ)

end Cert.Kernel.HandFrame

end
-- ==== Proof.Spec.lean ====
/-
  The linear head on the extended reals, as ONE function of the three argument arrays.

  For x : [1024, 32], W : [100000, 32], b : [100000] the result at (i, j) is the inner product of row i of x with
  row j of W — a sum of 32 products, taken in the order of the shared index — plus b j. Both programs compute this:
  the kernel blockwise over the class axis (each block a matrix product into a zero accumulator, then the bias
  row broadcast down the batch), the reference by one matrix product against the transposed weights and one
  broadcast sum. No law beyond reading each side at an index joins them, so nothing here needs finiteness.
-/
import Idealize.ShloMosaic.PureOps.Ideal
import Idealize.ShloMosaic.Lib.ValueIdx

noncomputable section

namespace Cert.LinearHead

open Idealize.ShloMosaic Idealize.ShloMosaic.ValueIdx

/-- Entry (i, j) of `x · Wᵀ + b`: the sum over the 32 shared features of `x i k · W j k`, plus `b j`. -/
def head (x : (⟨2, ![1024, 32]⟩ : Shape).Idx → EReal) (W : (⟨2, ![100000, 32]⟩ : Shape).Idx → EReal)
    (b : (⟨1, ![100000]⟩ : Shape).Idx → EReal) : (⟨2, ![1024, 100000]⟩ : Shape).Idx → EReal :=
  fun i => (∑ k : Fin 32, x (ix2 (i 0) k) * W (ix2 (i 1) k)) + b (ix1 (i 1))

/-- One block's worth of the same formula: for a weight block already transposed, `wt : [32, 4096]`, and a bias
    row `br : [1, 4096]`, entry (p, q) is the sum over k of `x p k · wt k q`, plus `br 0 q`. -/
def headBlock (x : (⟨2, ![1024, 32]⟩ : Shape).Idx → EReal) (wt : (⟨2, ![32, 4096]⟩ : Shape).Idx → EReal)
    (br : (⟨2, ![1, 4096]⟩ : Shape).Idx → EReal) : (⟨2, ![1024, 4096]⟩ : Shape).Idx → EReal :=
  fun j => (∑ k : Fin 32, x (ix2 (j 0) k) * wt (ix2 k (j 1))) + br (ix2 (0 : Fin 1) (j 1))

/-- A block entry depends on the weight block and the bias row only through column `j 1`: two weight blocks and
    two bias rows that agree on that column give the same entry. -/
theorem headBlock_congr_col (x : (⟨2, ![1024, 32]⟩ : Shape).Idx → EReal) (wt wt' : (⟨2, ![32, 4096]⟩ : Shape).Idx → EReal)
    (br br' : (⟨2, ![1, 4096]⟩ : Shape).Idx → EReal) (j : (⟨2, ![1024, 4096]⟩ : Shape).Idx)
    (hw : ∀ k : Fin 32, wt (ix2 k (j 1)) = wt' (ix2 k (j 1))) (hb : br (ix2 (0 : Fin 1) (j 1)) = br' (ix2 (0 : Fin 1) (j 1))) :
    headBlock x wt br j = headBlock x wt' br' j := by
  unfold headBlock
  rw [hb]
  congr 1
  exact Finset.sum_congr rfl fun k _ => by rw [hw k]

end Cert.LinearHead

end
-- ==== Proof.IdealData.lean ====
/-
  The proof data of the idealized kernel's one pipeline, at the extended reals.

  The class axis of 100000 entries is walked in 25 blocks of 4096; the last block has only 1696 columns inside the
  arrays (24 · 4096 + 1696 = 100000), so at that point the transfers of the weight block, the bias row and the
  result block move the first 1696 columns only and the staging buffers' remaining columns hold words nothing names.
  What the body leaves is therefore stated on the columns inside the arrays: the weight block and the bias row as
  fetched, filled out with zeros, and the result block as the block formula of those. A result column depends on the
  same column of the weights and of the bias only, so the columns past the arrays' end never reach a column that is
  written back.
-/
import proofs.«116324_g6253472383653_cont_sun_m_699_22_alg».proof.Proof.Gen.KernelIdeal.Frame
import proofs.«116324_g6253472383653_cont_sun_m_699_22_alg».proof.Proof.Gen.KernelIdeal.Skeleton
import proofs.«116324_g6253472383653_cont_sun_m_699_22_alg».proof.Proof.Spec

set_option maxRecDepth 16384

noncomputable section

namespace Cert.LinearHead.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable (m : (ℓ : Loc nD τ sig) → Buf (Elt Ideal) ℓ) (ρ : Dev nD → PrngReg)

/-! ## The blocks -/

/-- The weight block of point `t` as the body may rely on it: the columns inside the array as fetched, zero in the
    columns past the array's end. -/
def wblk (c : Dev nD) (t : Fin cfg0.N) : S32x4096.Idx → EReal :=
  win0_1.fill (grid0.coords t) (fun _ => (0 : EReal)) (iblk m c 1 t)

/-- The bias row of point `t`, likewise. -/
def bblk (c : Dev nD) (t : Fin cfg0.N) : S1x4096.Idx → EReal :=
  win0_2.fill (grid0.coords t) (fun _ => (0 : EReal)) (iblk m c 2 t)

/-- The result block of point `t`: the block formula of `x`, that weight block and that bias row. -/
def oblk (c : Dev nD) (t : Fin cfg0.N) : S1024x4096.Idx → EReal :=
  headBlock (iblk m c 0 t) (wblk m c t) (bblk m c t)

/-- The proof data on core `c`: the arrays as the region finds them; after the body at point `t` the buffer of `x` at
    `x`, the weight and bias buffers at their blocks and the result's buffer at the result block (each stated, for the
    three cut windows, on the columns inside the arrays); the class invariant; nothing owed; full shares. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => wblk m c t
    | ⟨2, _⟩ => bblk m c t
    | ⟨3, _⟩ => oblk m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = wblk m c t := by dsimp only [dats]
theorem after_2 (c : Dev nD) (t : Fin cfg0.N) : (dats m 0 c).after 2 t = bblk m c t := by dsimp only [dats]
theorem after_3 (c : Dev nD) (t : Fin cfg0.N) : (dats m 0 c).after 3 t = oblk m c t := by dsimp only [dats]

/-! ## What the body finds -/

/-- `x`'s buffer holds `x` at every point (fetched once, never cut). -/
theorem before_0 (c : Dev nD) (t : Fin cfg0.N) (d) : (dats m 0 c).before 0 t d = iblk m c 0 t :=
  before0_0_of m (dats m 0 c) (A_eq m c 0) (after_0 m c) t d

/-- The weight buffer, fetched at every point, holds the block on the columns inside the array and anything past them. -/
theorem before_1 (c : Dev nD) (t : Fin cfg0.N) (d) :
    (dats m 0 c).before 1 t d = win0_1.fill (grid0.coords t) d (iblk m c 1 t) := by
  rw [(dats m 0 c).before_fetched 1 t (fetch0_1 t) d]
  unfold Dat.fetched Dat.blockOf iblk; rw [A_eq]

/-- The bias buffer likewise. -/
theorem before_2 (c : Dev nD) (t : Fin cfg0.N) (d) :
    (dats m 0 c).before 2 t d = win0_2.fill (grid0.coords t) d (iblk m c 2 t) := by
  rw [(dats m 0 c).before_fetched 2 t (fetch0_2 t) d]
  unfold Dat.fetched Dat.blockOf iblk; rw [A_eq]

/-- The result's buffer holds anything: every point writes its block back, so every point starts afresh. -/
theorem before_3 (c : Dev nD) (t : Fin cfg0.N) (d) : (dats m 0 c).before 3 t d = d :=
  (dats m 0 c).before_out_reset 3 rfl t
    (by
      by_cases h0 : t.val = 0
      · exact .inl h0
      · exact .inr ⟨h0, flush0_3 _⟩) d

/-! ## The cuts, decided over the grid -/

/-- On the feature axis and the batch axis nothing is cut; on the class axis the three cut windows are cut alike:
    point `t` moves the columns `4096 t + q` with `q` below `min 4096 (100000 - 4096 t)`. -/
theorem cut_facts : ∀ t : Fin cfg0.N,
    win0_1.xsize (grid0.coords t) (0 : Fin 2) = 32
    ∧ win0_2.xsize (grid0.coords t) (0 : Fin 2) = 1
    ∧ win0_3.xsize (grid0.coords t) (0 : Fin 2) = 1024
    ∧ win0_1.xsize (grid0.coords t) (1 : Fin 2) = win0_3.xsize (grid0.coords t) (1 : Fin 2)
    ∧ win0_2.xsize (grid0.coords t) (1 : Fin 2) = win0_3.xsize (grid0.coords t) (1 : Fin 2)
    ∧ win0_3.xsize (grid0.coords t) (1 : Fin 2) + 4096 * t.val = min (4096 * t.val + 4096) 100000 :=
  (by decide +kernel : ∀ t : Fin grid0.N, _)

/-- The block indices: every window sits at row block 0; the three class-axis windows at column block `t`. -/
theorem idx_facts : ∀ t : Fin cfg0.N,
    win0_0.index t (0 : Fin 2) = 0 ∧ win0_0.index t (1 : Fin 2) = 0
    ∧ win0_1.index t (0 : Fin 2) = 0 ∧ win0_1.index t (1 : Fin 2) = t.val
    ∧ win0_2.index t (0 : Fin 2) = 0 ∧ win0_2.index t (1 : Fin 2) = t.val
    ∧ win0_3.index t (0 : Fin 2) = 0 ∧ win0_3.index t (1 : Fin 2) = t.val :=
  (by decide +kernel : ∀ t : Fin grid0.N, _)

end Cert.LinearHead.Run

end
-- ==== Proof.IdealKernelBody.lean ====
import proofs.«116324_g6253472383653_cont_sun_m_699_22_alg».proof.Proof.Gen.KernelIdeal.Frame
import proofs.«116324_g6253472383653_cont_sun_m_699_22_alg».proof.Proof.Gen.KernelIdeal.Skeleton
import Idealize.ShloMosaic.Lib.Pipeline.Value

/-! # The kernel body's triple

The body reads its four staging buffers whole (the last read is dead), and overwrites the whole result
buffer with `k0_pay1 x0 x1 x2`: the product of the first by the second plus the third's row broadcast
down the rows. Each access is through the unit rectangle at offset zero of the buffer's own extents, so a
load reads the buffer's contents and the one store leaves its payload. Everything stays symbolic in the
contents; the statement is generic in the float model. -/

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets of a rank-two access, as the constant function. -/
theorem hz : (![0, 0] : Fin 2 → Nat) = fun _ => 0 := funext fun a => by fin_cases a <;> rfl

set_option maxHeartbeats 1000000 in
/-- The body on whole staging memrefs, the three inputs' at contents `x0 x1 x2` and the result's at
    anything, runs to the continuation holding the inputs' as they were and the result's at
    `k0_pay1 x0 x1 x2`. -/
theorem sound_kernel (c : Dev nD) (E : Set ℕ) (i : grid0.Coords)
    (arg1 : Memref sig .tc .vmem S1024x32 .f32) (harg1 : arg1.IsWhole) (arg2 : Memref sig .tc .vmem S32x4096 .f32) (harg2 : arg2.IsWhole)
    (arg3 : Memref sig .tc .vmem S1x4096 .f32) (harg3 : arg3.IsWhole) (arg4 : Memref sig .tc .vmem S1024x4096 .f32) (harg4 : arg4.IsWhole)
    (x0 : Vec F S1024x32 .f32) (x1 : Vec F S32x4096 .f32) (x2 : Vec F S1x4096 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (k0_pay1 x0 x1 x2)) -∗ K ⟨⟩))
      ⊢ wp frame (wpE (defs₀ (F := F)) Variants.none c none) E (cc0__cwr_head_kernel i arg1 harg1 arg2 harg2 arg3 harg3 arg4 harg4) K := by
  simp only [cc0__cwr_head_kernel_eq_skeleton]; unfold cc0__cwr_head_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  refine (View.read_writes_eq_canon _ _ _ ?cov).trans ?_
  case cov =>
    intro y
    refine ⟨_, List.mem_singleton_self _, ?_⟩
    exact View.mem_set_unit_zero (S := S1024x4096) hz inb_S1024x4096_S1024x4096_0_0 y
  refine (View.canon_unit_zero (S := S1024x4096) hz inb_S1024x4096_S1024x4096_0_0 _).trans ?_
  have e0 : View.readAt (Elt F) arg1.view (Rect.unit ![0, 0] S1024x32.size inb_S1024x32_S1024x32_0_0).toLoadRect f0
      = View.read (Elt F) arg1.view f0 := View.ld_unit_zero (S := S1024x32) hz inb_S1024x32_S1024x32_0_0 _
  have e1 : View.readAt (Elt F) arg2.view (Rect.unit ![0, 0] S32x4096.size inb_S32x4096_S32x4096_0_0).toLoadRect f1
      = View.read (Elt F) arg2.view f1 := View.ld_unit_zero (S := S32x4096) hz inb_S32x4096_S32x4096_0_0 _
  have e2 : View.readAt (Elt F) arg3.view (Rect.unit ![0, 0] S1x4096.size inb_S1x4096_S1x4096_0_0).toLoadRect f2
      = View.read (Elt F) arg3.view f2 := View.ld_unit_zero (S := S1x4096) hz inb_S1x4096_S1x4096_0_0 _
  exact congr (congr (congrArg k0_pay1 e0) e1) e2

end Cert.KernelIdeal.Body

end
-- ==== Proof.PayloadAt.lean ====
/-
  The kernel body's arithmetic, read at an index.

  One grid step multiplies the whole activation matrix x : [1024, 32] by a weight block already transposed,
  wt : [32, 4096], into an accumulator of zeros, and adds the bias row br : [1, 4096] broadcast down the 1024 rows.
  Read at (p, q) the matrix product is the sum over the one contracted axis k of x p k · wt k q (the zero
  accumulator contributes nothing), the broadcast is br 0 q, and the two casts of a vector to its own shape are
  the identity. So the value stored is the block formula of the specification, entry by entry.
-/
import proofs.«116324_g6253472383653_cont_sun_m_699_22_alg».proof.Proof.Gen.KernelIdeal.Skeleton
import proofs.«116324_g6253472383653_cont_sun_m_699_22_alg».proof.Proof.Spec
import Idealize.ShloMosaic.Lib.Pipeline.Value
import Idealize.ShloMosaic.Lib.ValueIdx
import Idealize.ShloMosaic.PureOps.Ideal.Laws

noncomputable section

namespace Cert.LinearHead.Kernel

open Cert.KernelIdeal Cert.KernelIdeal.Gen Idealize.ShloMosaic Idealize.ShloMosaic.ValueIdx

/-! ## The operand indices of the matrix product

  The dimension numbers contract axis 1 of the left operand with axis 0 of the right one and have no batch axis:
  at output index j and contraction index q the left operand is read at (j 0, q) and the right one at (q, j 1). -/

theorem lhs_row (j : S1024x4096.Idx) (q : dot_S1024x32_S32x4096_S1024x4096_1_0_0_1_n_n.contr.Idx) :
    (dot_S1024x32_S32x4096_S1024x4096_1_0_0_1_n_n.lhsIdx j q 0).val = (j 0).val := by
  unfold DotDims.lhsIdx
  rw [dif_neg (show ¬(0 : Fin S1024x32.rank) ∈ dot_S1024x32_S32x4096_S1024x4096_1_0_0_1_n_n.lhsBatch by decide), dif_pos (show (0 : Fin S1024x32.rank) ∈ dot_S1024x32_S32x4096_S1024x4096_1_0_0_1_n_n.lhsNonContracting by decide)]
  rfl

theorem lhs_col (j : S1024x4096.Idx) (q : dot_S1024x32_S32x4096_S1024x4096_1_0_0_1_n_n.contr.Idx) :
    (dot_S1024x32_S32x4096_S1024x4096_1_0_0_1_n_n.lhsIdx j q 1).val = (q ⟨0, by decide⟩).val :=
  dot_S1024x32_S32x4096_S1024x4096_1_0_0_1_n_n.lhsIdx_val_of_single rfl j q

theorem rhs_row (j : S1024x4096.Idx) (q : dot_S1024x32_S32x4096_S1024x4096_1_0_0_1_n_n.contr.Idx) :
    (dot_S1024x32_S32x4096_S1024x4096_1_0_0_1_n_n.rhsIdx j q 0).val = (q ⟨0, by decide⟩).val :=
  dot_S1024x32_S32x4096_S1024x4096_1_0_0_1_n_n.rhsIdx_val_of_single rfl j q

theorem rhs_col (j : S1024x4096.Idx) (q : dot_S1024x32_S32x4096_S1024x4096_1_0_0_1_n_n.contr.Idx) :
    (dot_S1024x32_S32x4096_S1024x4096_1_0_0_1_n_n.rhsIdx j q 1).val = (j 1).val := by
  unfold DotDims.rhsIdx
  rw [dif_neg (show ¬(1 : Fin S32x4096.rank) ∈ dot_S1024x32_S32x4096_S1024x4096_1_0_0_1_n_n.rhsBatch by decide), dif_pos (show (1 : Fin S32x4096.rank) ∈ dot_S1024x32_S32x4096_S1024x4096_1_0_0_1_n_n.rhsNonContracting by decide)]
  rfl

/-! ## The matrix product into zeros, at an index -/

/-- Entry (p, q) of the product of x : [1024, 32] and w : [32, 4096] accumulated into zeros is the sum over the 32
    shared indices k of x p k · w k q. -/
theorem matmul_zero_apply (x : FVec Ideal S1024x32 .f32) (w : FVec Ideal S32x4096 .f32) (p : Fin 1024) (q : Fin 4096) :
    matmul dot_S1024x32_S32x4096_S1024x4096_1_0_0_1_n_n none x w (constant (F := Ideal) S1024x4096 .f32 0x00000000#32) (ix2 p q)
      = ∑ k : Fin 32, x (ix2 p k) * w (ix2 k q) := by
  refine (Ideal.matmul_constant_zero_apply dot_S1024x32_S32x4096_S1024x4096_1_0_0_1_n_n none x w (ix2 p q)).trans ?_
  rw [← Equiv.sum_comp (ValueIdx.contrEquiv1 dot_S1024x32_S32x4096_S1024x4096_1_0_0_1_n_n 32 rfl rfl).symm]
  refine Finset.sum_congr rfl fun k _ => ?_
  have hk := ValueIdx.contrEquiv1_symm_val dot_S1024x32_S32x4096_S1024x4096_1_0_0_1_n_n 32 rfl rfl k
  have el : dot_S1024x32_S32x4096_S1024x4096_1_0_0_1_n_n.lhsIdx (ix2 p q) ((ValueIdx.contrEquiv1 dot_S1024x32_S32x4096_S1024x4096_1_0_0_1_n_n 32 rfl rfl).symm k) = ix2 p k := funext fun a => Fin.ext (by
    match a with
    | ⟨0, _⟩ => exact lhs_row _ _
    | ⟨1, _⟩ => exact (lhs_col _ _).trans hk)
  have er : dot_S1024x32_S32x4096_S1024x4096_1_0_0_1_n_n.rhsIdx (ix2 p q) ((ValueIdx.contrEquiv1 dot_S1024x32_S32x4096_S1024x4096_1_0_0_1_n_n 32 rfl rfl).symm k) = ix2 k q := funext fun a => Fin.ext (by
    match a with
    | ⟨0, _⟩ => exact (rhs_row _ _).trans hk
    | ⟨1, _⟩ => exact rhs_col _ _)
  rw [el, er]

/-! ## The bias row broadcast down the rows, at an index -/

/-- The row br : [1, 4096] broadcast to [1024, 4096] reads br 0 q at (p, q). -/
theorem bias_broadcast_apply {α : Type} (br : S1x4096.Idx → α) (p : Fin 1024) (q : Fin 4096) :
    broadcastTo S1024x4096 br broadcasts_S1x4096_S1024x4096 (ix2 p q) = br (ix2 (0 : Fin 1) q) :=
  broadcastTo_apply br broadcasts_S1x4096_S1024x4096 (ix2 p q) (ix2 (0 : Fin 1) q) (fun a => match a with
    | ⟨0, _⟩ => by show (0 : Nat) = if (1 : Nat) = 1 then 0 else p.val; rw [if_pos rfl]
    | ⟨1, _⟩ => by show q.val = if (4096 : Nat) = 1 then 0 else q.val; rw [if_neg (by decide)])

/-! ## The payload is the block formula -/

/-- What one grid step stores is the specification's block: x · wt + br, entry by entry. -/
theorem pay_eq (x0 : Vec Ideal S1024x32 .f32) (x1 : Vec Ideal S32x4096 .f32) (x2 : Vec Ideal S1x4096 .f32) :
    Cert.KernelIdeal.Gen.k0_pay1 (F := Ideal) x0 x1 x2 = Cert.LinearHead.headBlock x0 x1 x2 := by
  funext j
  obtain ⟨p, q, rfl⟩ : ∃ p q, j = ix2 p q := ⟨j 0, j 1, eq_ix2 j⟩
  unfold k0_pay1 Cert.LinearHead.headBlock
  rw [shapeCast_self, shapeCast_self]
  show (matmul dot_S1024x32_S32x4096_S1024x4096_1_0_0_1_n_n none x0 x1 (constant (F := Ideal) S1024x4096 .f32 0x00000000#32) (ix2 p q) : EReal)
        + broadcastTo S1024x4096 x2 broadcasts_S1x4096_S1024x4096 (ix2 p q) = _
  rw [matmul_zero_apply, bias_broadcast_apply]

end Cert.LinearHead.Kernel

end
-- ==== Proof.IdealBody.lean ====
/-
  The body obligation of the idealized kernel at the extended reals.

  At point `t` the body is handed `x`, the weight block and the bias row — the last two known only on the columns
  inside the arrays — and stores the block formula of what it was handed. A stored column is the inner products of
  `x`'s rows with the same column of the weight buffer, plus the same column of the bias buffer; so on the columns
  inside the array the stored block is the result block of the proof data, whatever the buffers held past the
  arrays' end.
-/
import proofs.«116324_g6253472383653_cont_sun_m_699_22_alg».proof.Proof.IdealData
import proofs.«116324_g6253472383653_cont_sun_m_699_22_alg».proof.Proof.IdealKernelBody
import proofs.«116324_g6253472383653_cont_sun_m_699_22_alg».proof.Proof.PayloadAt

set_option maxRecDepth 16384

noncomputable section

namespace Cert.LinearHead.Run

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ)

/-- On the columns the write-back moves, the block formula does not see what the weight and bias buffers hold past
    the arrays' end: the three class-axis windows are cut alike, and column `q` of the result reads column `q` only. -/
theorem cut_headBlock (t : Fin cfg0.N) (X0 : S1024x32.Idx → EReal)
    (d1 d1' : S32x4096.Idx → EReal) (B1 : (win0_1.xblock (grid0.coords t)).Idx → EReal)
    (d2 d2' : S1x4096.Idx → EReal) (B2 : (win0_2.xblock (grid0.coords t)).Idx → EReal) :
    win0_3.cut (grid0.coords t) (headBlock X0 (win0_1.fill (grid0.coords t) d1 B1) (win0_2.fill (grid0.coords t) d2 B2))
      = win0_3.cut (grid0.coords t) (headBlock X0 (win0_1.fill (grid0.coords t) d1' B1) (win0_2.fill (grid0.coords t) d2' B2)) := by
  obtain ⟨e10, e20, e30, e11, e21, e31⟩ := cut_facts t
  funext j
  have hq : ((win0_3.xinj (grid0.coords t) j) 1).val < win0_3.xsize (grid0.coords t) (1 : Fin 2) := (j 1).isLt
  refine headBlock_congr_col X0 _ _ _ _ (win0_3.xinj (grid0.coords t) j) (fun k => ?_) ?_
  · have hm : win0_1.moved (grid0.coords t) (ix2 k ((win0_3.xinj (grid0.coords t) j) 1)) = true :=
      (win0_1.moved_iff _ _).mpr fun a => by
        match a with
        | ⟨0, _⟩ => show k.val < win0_1.xsize (grid0.coords t) (0 : Fin 2); rw [e10]; exact k.isLt
        | ⟨1, _⟩ => show ((win0_3.xinj (grid0.coords t) j) 1).val < win0_1.xsize (grid0.coords t) (1 : Fin 2); rw [e11]; exact hq
    unfold Window.fill; rw [dif_pos hm, dif_pos hm]
  · have hm : win0_2.moved (grid0.coords t) (ix2 (0 : Fin 1) ((win0_3.xinj (grid0.coords t) j) 1)) = true :=
      (win0_2.moved_iff _ _).mpr fun a => by
        match a with
        | ⟨0, _⟩ => show (0 : Nat) < win0_2.xsize (grid0.coords t) (0 : Fin 2); rw [e20]; exact Nat.one_pos
        | ⟨1, _⟩ => show ((win0_3.xinj (grid0.coords t) j) 1).val < win0_2.xsize (grid0.coords t) (1 : Fin 2); rw [e21]; exact hq
    unfold Window.fill; rw [dif_pos hm, dif_pos hm]

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns: `x`'s buffer as it was, and each cut window's buffer stated on the columns inside its array. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ (∃ d, owns (c : Thread nD τ) (st0_1 t) fullShare (win0_1.fill (grid0.coords t) d (win0_1.cut (grid0.coords t) ((dats m 0 c).after 1 t))))
    ∗ (∃ d, owns (c : Thread nD τ) (st0_2 t) fullShare (win0_2.fill (grid0.coords t) d (win0_2.cut (grid0.coords t) ((dats m 0 c).after 2 t))))
    ∗ (∃ d, owns (c : Thread nD τ) (st0_3 t) fullShare (win0_3.fill (grid0.coords t) d (win0_3.cut (grid0.coords t) ((dats m 0 c).after 3 t)))))

/-- The body at any point. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before_0, before_1, before_2, before_3]
  rw [show (dats m 0 c).Φ t.succ = (dats m 0 c).Φ t.castSucc from rfl,
    show (dats m 0 c).owesAt () t.succ = (dats m 0 c).owesAt () t.castSucc from rfl,
    after_0, after_1, after_2, after_3]
  iintro ⟨HΦ, Ho, ⟨%d0, H0⟩, ⟨%d1, H1⟩, ⟨%d2, H2⟩, ⟨%d3, H3⟩⟩
  iapply (Cert.KernelIdeal.Body.sound_kernel c Set.univ (grid0.coords t) _ _ _ _ _ _ _ _ (iblk m c 0 t)
    (win0_1.fill (grid0.coords t) d1 (iblk m c 1 t)) (win0_2.fill (grid0.coords t) d2 (iblk m c 2 t)) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]
  · iexists d1
    rw [show win0_1.cut (grid0.coords t) (wblk m c t) = iblk m c 1 t from win0_1.cut_fill _ _ _]
    iexact H1
  isplitl [H2]
  · iexists d2
    rw [show win0_2.cut (grid0.coords t) (bblk m c t) = iblk m c 2 t from win0_2.cut_fill _ _ _]
    iexact H2
  · iexists k0_pay1 (F := Ideal) (iblk m c 0 t) (win0_1.fill (grid0.coords t) d1 (iblk m c 1 t)) (win0_2.fill (grid0.coords t) d2 (iblk m c 2 t))
    rw [win0_3.fill_congr_cut (grid0.coords t) (show win0_3.cut (grid0.coords t) (k0_pay1 (F := Ideal) (iblk m c 0 t) (win0_1.fill (grid0.coords t) d1 (iblk m c 1 t)) (win0_2.fill (grid0.coords t) d2 (iblk m c 2 t)))
        = win0_3.cut (grid0.coords t) (oblk m c t) from by
      rw [Cert.LinearHead.Kernel.pay_eq]; exact cut_headBlock t _ _ _ _ _ _ _)]
    iexact H3

/-- The library's body obligation, at every point. -/
theorem body_obligation (c : Dev nD) : BodyObligationLoose (dats m 0 c) (defs₀ (F := Ideal)) Variants.none () Set.univ := fun t => by
  rw [bigSep_W0, bigSep_W0]
  exact sound_body m c t

end Cert.LinearHead.Run

end
-- ==== Proof.HostOpsAt.lean ====
/-
  The two arrays the program prepares before the blockwise region, read at an index.

  Before the region the weights W : [100000, 32] are transposed to [32, 100000] and the bias b : [100000] is
  reshaped to a row [1, 100000]. Entry (k, j) of the transposed weights is W j k; entry (0, j) of the row is b j
  (the row-major position of (0, j) in a [1, 100000] array is j itself). The region therefore finds, in the two
  arrays it reads blocks of, exactly these functions of the program's arguments.
-/
import proofs.«116324_g6253472383653_cont_sun_m_699_22_alg».proof.Proof.Gen.KernelIdeal.Frame
import Idealize.ShloMosaic.Lib.Pipeline.Value
import Idealize.ShloMosaic.Lib.ValueIdx

noncomputable section

namespace Cert.LinearHead.Kernel

open Cert.KernelIdeal Cert.KernelIdeal.Gen Idealize.ShloMosaic Idealize.ShloMosaic.TcCoe Idealize.ShloMosaic.ValueIdx
open Idealize.SL.Sem Idealize.ShloMosaic.StableHlo

/-! ## The two operations at an index, for any element type -/

/-- The transposed weights at (k, j) are the weights at (j, k). -/
theorem wt_apply {α : Type} (W : S100000x32.Idx → α) (k : Fin 32) (j : Fin 100000) :
    transpose S32x100000 [1, 0] W transposes_S100000x32_S32x100000_1_0 (ix2 k j) = W (ix2 j k) :=
  transpose_apply [1, 0] W transposes_S100000x32_S32x100000_1_0 (ix2 k j) (ix2 j k) (fun a => match a with
    | ⟨0, _⟩ => rfl
    | ⟨1, _⟩ => rfl)

/-- The bias as a row: entry (0, j) is b j. -/
theorem brow_apply {α : Type} (b : S100000.Idx → α) (j : Fin 100000) :
    shapeCast S1x100000 b shapeCasts_S100000_S1x100000 (ix2 (0 : Fin 1) j) = b (ix1 j) :=
  shapeCast_apply b shapeCasts_S100000_S1x100000 (ix2 (0 : Fin 1) j) (ix1 j) (by
    rw [Shape.rowMajor_val_two, Shape.rowMajor_val_one]
    show j.val = 0 * 100000 + j.val
    omega)

/-! ## What the region finds in the two prepared arrays -/

/-- On entry to the region the first prepared array holds the transposed weights. -/
theorem V_main_v0 (m : (ℓ : Loc nD τ sig) → Buf (Elt Ideal) ℓ) (c : Dev nD) :
    (Gen.V (F := Ideal) m c main_v0 : S32x100000.Idx → EReal)
      = transpose S32x100000 [1, 0] (m ((c : Thread nD τ).loc main_arg1)) transposes_S100000x32_S32x100000_1_0 := by
  dsimp only [Gen.V, Gen.hostOps0]
  after_results

/-- On entry to the region the second prepared array holds the bias as a row. -/
theorem V_main_v1 (m : (ℓ : Loc nD τ sig) → Buf (Elt Ideal) ℓ) (c : Dev nD) :
    (Gen.V (F := Ideal) m c main_v1 : S1x100000.Idx → EReal)
      = shapeCast S1x100000 (m ((c : Thread nD τ).loc main_arg2)) shapeCasts_S100000_S1x100000 := by
  dsimp only [Gen.V, Gen.hostOps0]
  after_results
  rfl

/-- The first prepared array at (k, j): the weights argument at (j, k). -/
theorem V_main_v0_apply (m : (ℓ : Loc nD τ sig) → Buf (Elt Ideal) ℓ) (c : Dev nD) (k : Fin 32) (j : Fin 100000) :
    (Gen.V (F := Ideal) m c main_v0 : S32x100000.Idx → EReal) (ix2 k j)
      = (m ((c : Thread nD τ).loc main_arg1) : S100000x32.Idx → EReal) (ix2 j k) := by
  rw [V_main_v0]
  exact wt_apply _ k j

/-- The second prepared array at (0, j): the bias argument at j. -/
theorem V_main_v1_apply (m : (ℓ : Loc nD τ sig) → Buf (Elt Ideal) ℓ) (c : Dev nD) (j : Fin 100000) :
    (Gen.V (F := Ideal) m c main_v1 : S1x100000.Idx → EReal) (ix2 (0 : Fin 1) j)
      = (m ((c : Thread nD τ).loc main_arg2) : S100000.Idx → EReal) (ix1 j) := by
  rw [V_main_v1]
  exact brow_apply _ j

end Cert.LinearHead.Kernel

end
-- ==== Proof.IdealValue.lean ====
/-
  The idealized kernel's run with the result array named: it ends holding the linear head of the argument arrays.

  Point `t` writes back the columns `4096 t + q` of the result, `q` below `min 4096 (100000 - 4096 t)`. Entry
  (p, q) of what it writes is the sum over the 32 features `k` of `x p k` times the weight block's entry (k, q), plus
  the bias row's entry q; the weight block's entry is the transposed weights' at column `4096 t + q`, that is
  `W (4096 t + q) k`, and the bias row's is `b (4096 t + q)`. So point `t`'s write-back is block `t` of the linear head,
  and the 25 blocks' columns inside the array are all 100000 columns: column `j` is written by point `j / 4096`.
-/
import proofs.«116324_g6253472383653_cont_sun_m_699_22_alg».proof.Proof.IdealBody
import proofs.«116324_g6253472383653_cont_sun_m_699_22_alg».proof.Proof.HostOpsAt
import Idealize.ShloMosaic.Lib.Pipeline.Value

set_option maxRecDepth 16384

noncomputable section

namespace Cert.LinearHead.Run

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable (m : (ℓ : Loc nD τ sig) → Buf (Elt Ideal) ℓ) (ρ : Dev nD → PrngReg)

/-- The linear head of core `c`'s argument arrays as launched. -/
abbrev result (c : Dev nD) : Buf (Elt Ideal) ((c : Thread nD τ).loc main_v2) :=
  head (m ((c : Thread nD τ).loc main_arg0)) (m ((c : Thread nD τ).loc main_arg1)) (m ((c : Thread nD τ).loc main_arg2))

/-! ## The blocks, read at an index -/

/-- `x`'s block is `x`: its one block sits at the origin. -/
theorem x_at (c : Dev nD) (t : Fin cfg0.N) (p i0 : Fin 1024) (k : Fin 32) (hi : i0.val = p.val) :
    iblk m c 0 t (ix2 p k) = m ((c : Thread nD τ).loc main_arg0) (ix2 i0 k) := by
  obtain ⟨i00, i01, -⟩ := idx_facts t
  show V m c main_arg0 (((cfg0.win 0).blk t).view.emb (ix2 p k)) = _
  rw [V_main_arg0]
  refine congrArg _ (funext fun a => Fin.ext ?_)
  match a with
  | ⟨0, _⟩ => show win0_0.index t (0 : Fin 2) * 1024 + 1 * p.val = i0.val; rw [i00, hi]; omega
  | ⟨1, _⟩ => show win0_0.index t (1 : Fin 2) * 32 + 1 * k.val = k.val; rw [i01]; omega

/-- Entry (k, q) of the weight block of point `t`, for a column `q` inside the array, is `W (4096 t + q) k`. -/
theorem w_at (c : Dev nD) (t : Fin cfg0.N) (k : Fin 32) (q : Fin 4096) (i1 : Fin 100000)
    (hq : q.val < win0_3.xsize (grid0.coords t) (1 : Fin 2)) (hi : i1.val = 4096 * t.val + q.val) :
    wblk m c t (ix2 k q) = m ((c : Thread nD τ).loc main_arg1) (ix2 i1 k) := by
  obtain ⟨e10, e20, e30, e11, e21, e31⟩ := cut_facts t
  obtain ⟨-, -, i10, i11, -⟩ := idx_facts t
  have hm : win0_1.moved (grid0.coords t) (ix2 k q) = true :=
    (win0_1.moved_iff _ _).mpr fun a => by
      match a with
      | ⟨0, _⟩ => show k.val < win0_1.xsize (grid0.coords t) (0 : Fin 2); rw [e10]; exact k.isLt
      | ⟨1, _⟩ => show q.val < win0_1.xsize (grid0.coords t) (1 : Fin 2); rw [e11]; exact hq
  unfold wblk Window.fill
  rw [dif_pos hm]
  show V m c main_v0 (((cfg0.win 1).blk t).view.emb _) = _
  rw [Cert.LinearHead.Kernel.V_main_v0, ← Cert.LinearHead.Kernel.wt_apply (m ((c : Thread nD τ).loc main_arg1)) k i1]
  refine congrArg _ (funext fun a => Fin.ext ?_)
  match a with
  | ⟨0, _⟩ => show win0_1.index t (0 : Fin 2) * 32 + 1 * k.val = k.val; rw [i10]; omega
  | ⟨1, _⟩ => show win0_1.index t (1 : Fin 2) * 4096 + 1 * q.val = i1.val; rw [i11, hi]; omega

/-- Entry `q` of the bias row of point `t`, for a column `q` inside the array, is `b (4096 t + q)`. -/
theorem b_at (c : Dev nD) (t : Fin cfg0.N) (q : Fin 4096) (i1 : Fin 100000)
    (hq : q.val < win0_3.xsize (grid0.coords t) (1 : Fin 2)) (hi : i1.val = 4096 * t.val + q.val) :
    bblk m c t (ix2 (0 : Fin 1) q) = m ((c : Thread nD τ).loc main_arg2) (ix1 i1) := by
  obtain ⟨e10, e20, e30, e11, e21, e31⟩ := cut_facts t
  obtain ⟨-, -, -, -, i20, i21, -⟩ := idx_facts t
  have hm : win0_2.moved (grid0.coords t) (ix2 (0 : Fin 1) q) = true :=
    (win0_2.moved_iff _ _).mpr fun a => by
      match a with
      | ⟨0, _⟩ => show (0 : Nat) < win0_2.xsize (grid0.coords t) (0 : Fin 2); rw [e20]; exact Nat.one_pos
      | ⟨1, _⟩ => show q.val < win0_2.xsize (grid0.coords t) (1 : Fin 2); rw [e21]; exact hq
  unfold bblk Window.fill
  rw [dif_pos hm]
  show V m c main_v1 (((cfg0.win 2).blk t).view.emb _) = _
  rw [Cert.LinearHead.Kernel.V_main_v1, ← Cert.LinearHead.Kernel.brow_apply (m ((c : Thread nD τ).loc main_arg2)) i1]
  refine congrArg _ (funext fun a => Fin.ext ?_)
  match a with
  | ⟨0, _⟩ => show win0_2.index t (0 : Fin 2) * 1 + 1 * 0 = 0; rw [i20]
  | ⟨1, _⟩ => show win0_2.index t (1 : Fin 2) * 4096 + 1 * q.val = i1.val; rw [i21, hi]; omega

/-! ## What a point writes back, and the cover -/

/-- What point `t` writes back is block `t` of the linear head. -/
theorem flushed_eq (c : Dev nD) (t : Fin cfg0.N) :
    (dats m 0 c).flushed 3 t = ((cfg0.win 3).blk t).view.read (Elt Ideal) (result m c) := by
  show (cfg0.win 3).cut (grid0.coords t) ((dats m 0 c).after 3 t) = _
  rw [after_3]
  obtain ⟨-, -, -, -, -, -, i30, i31⟩ := idx_facts t
  funext j
  have hi0 : ((((cfg0.win 3).blk t).view.emb j) 0).val = (j 0).val := by
    show win0_3.index t (0 : Fin 2) * 1024 + 1 * (j 0).val = _; rw [i30]; omega
  have hi1 : ((((cfg0.win 3).blk t).view.emb j) 1).val = 4096 * t.val + (j 1).val := by
    show win0_3.index t (1 : Fin 2) * 4096 + 1 * (j 1).val = _; rw [i31]; omega
  show headBlock (iblk m c 0 t) (wblk m c t) (bblk m c t) (win0_3.xinj (grid0.coords t) j)
    = head _ _ _ (((cfg0.win 3).blk t).view.emb j)
  unfold headBlock head
  exact congrArg₂ (· + ·)
    (Finset.sum_congr rfl fun k _ => congrArg₂ (· * ·) (x_at m c t _ _ k hi0) (w_at m c t k _ _ (j 1).isLt hi1))
    (b_at m c t _ _ (j 1).isLt hi1)

/-- An index of the result array is in point `t`'s block iff each coordinate lies in the block's part inside the array. -/
theorem mem_blk (t : Fin cfg0.N) (i : S1024x100000.Idx) :
    i ∈ ((cfg0.win 3).blk t).view.set ↔ ∀ a : Fin 2, win0_3.index t a * S1024x4096.size a ≤ (i a).val
      ∧ (i a).val < win0_3.index t a * S1024x4096.size a + win0_3.xsize (grid0.coords t) a := by
  show i ∈ ((View.whole main_v2).slice (win0_3.rect t)).set ↔ _
  rw [View.set_slice_whole, Rect.mem_set_unit]
  exact Iff.rfl

/-- Every entry of the result is written back by some point: column `j` by point `j / 4096`. -/
theorem cover (i : S1024x100000.Idx) :
    ∃ t : Fin cfg0.N, (cfg0.win 3).flush t = true ∧ i ∈ ((cfg0.win 3).blk t).view.set := by
  have h0 : (i 0).val < 1024 := (i 0).isLt
  have h1 : (i 1).val < 100000 := (i 1).isLt
  have hN : (i 1).val / 4096 < cfg0.N := by show _ < grid0.N; rw [N_0]; omega
  refine ⟨⟨(i 1).val / 4096, hN⟩, flush0_3 _, (mem_blk _ i).mpr fun a => ?_⟩
  obtain ⟨e10, e20, e30, e11, e21, e31⟩ := cut_facts ⟨(i 1).val / 4096, hN⟩
  obtain ⟨-, -, -, -, -, -, i30, i31⟩ := idx_facts ⟨(i 1).val / 4096, hN⟩
  match a with
  | ⟨0, _⟩ =>
    show win0_3.index _ (0 : Fin 2) * 1024 ≤ (i 0).val ∧ (i 0).val < win0_3.index _ (0 : Fin 2) * 1024 + win0_3.xsize _ (0 : Fin 2)
    rw [i30, e30]; omega
  | ⟨1, _⟩ =>
    show win0_3.index _ (1 : Fin 2) * 4096 ≤ (i 1).val ∧ (i 1).val < win0_3.index _ (1 : Fin 2) * 4096 + win0_3.xsize _ (1 : Fin 2)
    have i31' : win0_3.index ⟨(i 1).val / 4096, hN⟩ (1 : Fin 2) = (i 1).val / 4096 := i31
    have e31' : win0_3.xsize (grid0.coords ⟨(i 1).val / 4096, hN⟩) (1 : Fin 2) + 4096 * ((i 1).val / 4096) = min (4096 * ((i 1).val / 4096) + 4096) 100000 := e31
    rw [i31']
    clear i31 e31 i30 e30 e10 e20 e11 e21
    omega

/-- The result array after the last write-back is the linear head. -/
theorem final (c : Dev nD) : (dats m 0 c).arrAt 3 cfg0.N = result m c :=
  (dats m 0 c).arrAt_eq_of_cover 3 (result m c) (fun t _ => flushed_eq m c t) cover

/-! ## The run -/

set_option backward.isDefEq.respectTransparency.types false in
/-- Every weakly fair execution of the idealized kernel terminates, faulting nowhere, with every array of the pipeline
    at what the proof data computes and every other buffer as the region found it. -/
theorem run_main : θ_run defs (onTc (τ := τ) (main (F := Ideal))) (s₀ m ρ) (Pipeline.FramePost cfgs (dats m) 0 (V m)) :=
  Pipeline.θ_run_frame cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := A_eq m) (hΦ := fun _ _ => rfl)

/-- The run with the result named: the result array ends at the linear head of the arguments, the arguments unchanged. -/
theorem run : θ_run defs (onTc (τ := τ) (main (F := Ideal))) ⟨m, fun _ => 0, ρ⟩ (fun r => ∀ c : Dev nD,
      r.2.mem ((c.tc : Thread nD τ).loc main_v2) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).1 3).trans (final m c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩) (run_main m ρ)

end Cert.LinearHead.Run

end
-- ==== Proof.RefHead.lean ====
/-
  The reference program's result, read at an index, is the linear head.

  The reference transposes the weights, contracts the activations with them over the shared axis, lifts the bias
  to a row and then to the whole result by two broadcasts, and adds. Each of the five operations reads its
  operands at one index computed from the result's; composing those index maps, entry (i, j) is the sum over k of
  x i k · W j k (the transposition read backwards) plus b j (the two broadcasts read backwards).
-/
import proofs.«116324_g6253472383653_cont_sun_m_699_22_alg».proof.Proof.Gen.ReferenceIdeal.Read
import proofs.«116324_g6253472383653_cont_sun_m_699_22_alg».proof.Proof.Spec

noncomputable section

namespace Cert.LinearHead.Reference

open Cert.ReferenceIdeal Cert.ReferenceIdeal.Read Idealize.ShloMosaic Idealize.ShloMosaic.ValueIdx

/-! ## The composed index maps, by coordinates -/

/-- The left operand of the contraction is read at (i 0, k). -/
theorem act_idx (i : S1024x100000.Idx) (k : Fin 32) : lidx_main_v1 i k = ix2 (i 0) k :=
  funext fun a => Fin.ext (by match a with | ⟨0, _⟩ => rfl | ⟨1, _⟩ => rfl)

/-- The right operand is the transposed weights at (k, i 1): the weights at (i 1, k). -/
theorem weight_idx (i : S1024x100000.Idx) (k : Fin 32) : idx_main_v0 (ridx_main_v1 i k) = ix2 (i 1) k :=
  funext fun a => Fin.ext (by match a with | ⟨0, _⟩ => rfl | ⟨1, _⟩ => rfl)

/-- The bias, lifted to a row and then to every row, is read at i 1. -/
theorem bias_idx (i : S1024x100000.Idx) : idx_main_v2 (idx_main_v3 i) = ix1 (i 1) :=
  funext fun a => Fin.ext (by match a with | ⟨0, _⟩ => rfl)

/-! ## The reference is the head -/

theorem ref_eq (x0 : (⟨S1024x32, .f32⟩ : BufTy).Contents (Elt Ideal)) (x1 : (⟨S100000x32, .f32⟩ : BufTy).Contents (Elt Ideal))
    (x2 : (⟨S100000, .f32⟩ : BufTy).Contents (Elt Ideal)) :
    Cert.ReferenceIdeal.Read.val_main_v4 (F := Ideal) x0 x1 x2 = Cert.LinearHead.head x0 x1 x2 := by
  funext i
  rw [val_main_v4_apply, val_main_v1_apply, val_main_v3_apply, val_main_v2_apply]
  simp only [val_main_v0_apply, act_idx, weight_idx, bias_idx, Ideal.addf_def]
  rfl

end Cert.LinearHead.Reference

end
-- ==== Proof.lean ====
/-
  The certificate of the linear head `y = x · Wᵀ + b` (x : [1024, 32], W : [100000, 32], b : [100000]).

  The kernel walks the 100000 classes in 25 blocks of 4096 (the last block has 1696 columns inside the arrays): at
  each block it multiplies `x` by the block of the transposed weights into a zero accumulator and adds the bias row
  down the batch. The reference is one matrix product against the transposed weights plus one broadcast sum. On
  the extended reals both are, entry by entry, the sum over the 32 features of `x i k · W j k`, plus `b j`
  (`Cert.LinearHead.head`): the kernel's result array by its run with the array named, the reference's by its run
  read one operation at a time. No algebraic law is needed, so the finiteness of the inputs is never used.

  The frames: the word-level kernel's by a run that states nothing of the staging buffers' contents; the idealized
  kernel's and the reference's are their value runs with the result dropped. The idealization rewrote no operation,
  so `preserves` has nothing to state.
-/
import proofs.«116324_g6253472383653_cont_sun_m_699_22_alg».proof.Defs
import proofs.«116324_g6253472383653_cont_sun_m_699_22_alg».proof.Proof.Gen.Kernel
import proofs.«116324_g6253472383653_cont_sun_m_699_22_alg».proof.Proof.Gen.KernelIdeal
import proofs.«116324_g6253472383653_cont_sun_m_699_22_alg».proof.Proof.Gen.ReferenceIdeal
import proofs.«116324_g6253472383653_cont_sun_m_699_22_alg».proof.Proof.Gen.Pre_finite_inputs
import proofs.«116324_g6253472383653_cont_sun_m_699_22_alg».proof.Proof.Gen.ReferenceIdeal.Run
import proofs.«116324_g6253472383653_cont_sun_m_699_22_alg».proof.Proof.Gen.ReferenceIdeal.Read
import proofs.«116324_g6253472383653_cont_sun_m_699_22_alg».proof.Proof.KernelFrame
import proofs.«116324_g6253472383653_cont_sun_m_699_22_alg».proof.Proof.IdealValue
import proofs.«116324_g6253472383653_cont_sun_m_699_22_alg».proof.Proof.RefHead
import Idealize.ShloMosaic.Adequacy
import Idealize.ShloMosaic.Init

noncomputable section

namespace Cert.Proof

open Idealize.ShloMosaic Idealize.SL.Sem

/-- The word-level kernel runs to the end, faults nowhere and leaves its arguments as they were. -/
theorem frame_kernel : Cert.frame_Kernel := fun m ρ _ => Cert.Kernel.HandFrame.frame (F := Bits) m ρ

/-- So does the idealized kernel: its value run, the result dropped. -/
theorem frame_kernelIdeal : Cert.frame_KernelIdeal := fun m ρ _ =>
  (θ_run Cert.KernelIdeal.defs _ _).mono (fun _ h c => (h c).2) (Cert.LinearHead.Run.run m ρ)

/-- And the reference: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the arguments, the idealized kernel and the reference both end with the linear head
    of the arguments in their result arrays. -/
theorem algebraic : Cert.algebraic_KernelIdeal_ReferenceIdeal := by
  intro m ρ m' ρ' _ hagree
  refine ⟨fun c => Cert.LinearHead.Run.result m c, Cert.LinearHead.Run.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, Cert.LinearHead.Reference.ref_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
